-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«169940_j52390011076772_2_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LayerBlock.lean ====
/-
  One layer on one block of rows.

  A layer takes the summed neighbour features A [N, 128], the node features X [N, 128], one scale per node
  CI [N, 1], two weight matrices and a bias row, and returns, at (n, d),
      ((A scaled row by row by CI) · W_l) (n, d) + (X · W_r) (n, d) + b d.
  Row n of the result depends on row n of A, of X and of CI only. So the kernel body, which is handed rows
  off, …, off + 4999 of the three arrays and all of the weights, computes rows off, … of the layer: its two
  products into zero accumulators are those rows of the two whole products, its row scaling is the whole
  array's row scaling, and its bias row is added to every row. Changing a float's format is the identity on
  the extended reals, so the narrowings before the products drop out. The first layer takes the maximum
  with zero afterwards, the second does not.
-/
import proofs.«169940_j52390011076772_2_alg».proof.Proof.Gen.KernelIdeal.Skeleton
import proofs.«169940_j52390011076772_2_alg».proof.Proof.LibRowBlockProduct
import Idealize.ShloMosaic.Lib.ValueIdx
import Idealize.ShloMosaic.Lib.ValueLayout
import Idealize.ShloMosaic.Lib.Pipeline.Value

noncomputable section

namespace Cert.Sage

open Cert.KernelIdeal Cert.KernelIdeal.Gen Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Every row of A scaled by its row's entry of the column CI. -/
def scaledRows (A : FVec Ideal S100000x128 .f32) (CI : FVec Ideal S100000x1 .f32) : FVec Ideal S100000x128 .f32 :=
  fun i => A i * CI (ix2 (i 0 : Fin 100000) (0 : Fin 1))

/-- One layer before any activation: (A scaled by CI) · W_l + X · W_r + the bias row. -/
def layerSum (A X : FVec Ideal S100000x128 .f32) (CI : FVec Ideal S100000x1 .f32) (Wl : FVec Ideal S128x128 .f32)
    (B : FVec Ideal S128 .f32) (Wr : FVec Ideal S128x128 .f32) : FVec Ideal S100000x128 .f32 :=
  fun i => Host.dotGeneral (DotDims.plain 100000 128 128) none (scaledRows A CI) Wl i
    + Host.dotGeneral (DotDims.plain 100000 128 128) none X Wr i + B (ix1 (i 1 : Fin 128))

/-- The body's arithmetic on rows off, … of the three arrays is rows off, … of the layer. -/
theorem block_sum (off : Nat) (a x : FVec Ideal S5000x128 .f32) (ci : FVec Ideal S5000x1 .f32)
    (wl wr : FVec Ideal S128x128 .f32) (b : FVec Ideal S128 .f32)
    (A X : FVec Ideal S100000x128 .f32) (CI : FVec Ideal S100000x1 .f32)
    (e : S5000x128.Idx → S100000x128.Idx) (e1 : S5000x1.Idx → S100000x1.Idx)
    (he0 : ∀ y, (e y 0).val = off + (y 0).val) (he1 : ∀ y, (e y 1).val = (y 1).val)
    (he10 : ∀ y, (e1 y 0).val = off + (y 0).val)
    (ha : ∀ y, a y = A (e y)) (hx : ∀ y, x y = X (e y)) (hci : ∀ y, ci y = CI (e1 y))
    (j : S5000x128.Idx) :
    addf (addf
        (matmul dot_S5000x128_S128x128_S5000x128_1_0_0_1_n_n none
          (truncf .bf16 (mulf a (broadcastTo S5000x128 ci broadcasts_S5000x1_S5000x128)) bitsLt_bf16_f32)
          (truncf .bf16 wl bitsLt_bf16_f32) (constant S5000x128 .f32 0x00000000#32))
        (matmul dot_S5000x128_S128x128_S5000x128_1_0_0_1_n_n none (truncf .bf16 x bitsLt_bf16_f32)
          (truncf .bf16 wr bitsLt_bf16_f32) (constant S5000x128 .f32 0x00000000#32)))
      (broadcastTo S5000x128 (shapeCast S1x128 b shapeCasts_S128_S1x128) broadcasts_S1x128_S5000x128) j
      = layerSum A X CI wl b wr (e j) := by
  obtain ⟨p, q, rfl⟩ : ∃ (p : Fin 5000) (q : Fin 128), j = ix2 p q := ⟨j 0, j 1, eq_ix2 j⟩
  rw [addf_apply, addf_apply]
  unfold layerSum
  have hq : ((e (ix2 p q) 1 : Fin 128)) = q := Fin.ext (he1 (ix2 p q))
  congr 1
  · congr 1
    · refine Cert.Lib.plain_product_row_block none _ _ (scaledRows A CI) wl e id e off (fun y => ?_) (fun y => rfl) he0 he1
        (fun y => rfl) (fun y => rfl) he0 he1 (ix2 p q)
      obtain ⟨r, s, rfl⟩ : ∃ (r : Fin 5000) (s : Fin 128), y = ix2 r s := ⟨y 0, y 1, eq_ix2 y⟩
      rw [truncf_apply, mulf_apply, broadcastTo_a1_ab_apply, ha, hci]
      unfold scaledRows
      congr 2
      funext ax
      apply Fin.ext
      match ax with
      | ⟨0, _⟩ => exact (he10 (ix2 r 0)).trans (he0 (ix2 r s)).symm
      | ⟨1, _⟩ =>
        have : (e1 (ix2 r 0) 1).val < 1 := (e1 (ix2 r 0) 1).isLt
        show (e1 (ix2 r 0) 1).val = 0
        omega
    · exact Cert.Lib.plain_product_row_block none _ _ X wr e id e off (fun y => by rw [truncf_apply, hx]) (fun y => rfl)
        he0 he1 (fun y => rfl) (fun y => rfl) he0 he1 (ix2 p q)
  · rw [broadcastTo_1b_ab_apply, shapeCast_a_1a_apply, hq]

/-- The first layer's payload: rows off, … of the layer, then the maximum with zero. -/
theorem pay0_block (off : Nat) (a x : FVec Ideal S5000x128 .f32) (ci : FVec Ideal S5000x1 .f32)
    (wl wr : FVec Ideal S128x128 .f32) (b : FVec Ideal S128 .f32)
    (A X : FVec Ideal S100000x128 .f32) (CI : FVec Ideal S100000x1 .f32)
    (e : S5000x128.Idx → S100000x128.Idx) (e1 : S5000x1.Idx → S100000x1.Idx)
    (he0 : ∀ y, (e y 0).val = off + (y 0).val) (he1 : ∀ y, (e y 1).val = (y 1).val)
    (he10 : ∀ y, (e1 y 0).val = off + (y 0).val)
    (ha : ∀ y, a y = A (e y)) (hx : ∀ y, x y = X (e y)) (hci : ∀ y, ci y = CI (e1 y))
    (j : S5000x128.Idx) :
    k0_pay1 (F := Ideal) a ci x wl wr b j = max (layerSum A X CI wl b wr (e j)) 0 := by
  unfold k0_pay1
  rw [shapeCast_self a, shapeCast_self ci, maximumf_apply,
    block_sum off a x ci wl wr b A X CI e e1 he0 he1 he10 ha hx hci j]
  show max _ (Ideal.ofBits .f32 0x00000000#32) = _
  rw [Ideal.ofBits_zero_f32]

/-- The second layer's payload: rows off, … of the layer. -/
theorem pay1_block (off : Nat) (a x : FVec Ideal S5000x128 .f32) (ci : FVec Ideal S5000x1 .f32)
    (wl wr : FVec Ideal S128x128 .f32) (b : FVec Ideal S128 .f32)
    (A X : FVec Ideal S100000x128 .f32) (CI : FVec Ideal S100000x1 .f32)
    (e : S5000x128.Idx → S100000x128.Idx) (e1 : S5000x1.Idx → S100000x1.Idx)
    (he0 : ∀ y, (e y 0).val = off + (y 0).val) (he1 : ∀ y, (e y 1).val = (y 1).val)
    (he10 : ∀ y, (e1 y 0).val = off + (y 0).val)
    (ha : ∀ y, a y = A (e y)) (hx : ∀ y, x y = X (e y)) (hci : ∀ y, ci y = CI (e1 y))
    (j : S5000x128.Idx) :
    k1_pay1 (F := Ideal) a ci x wl wr b j = layerSum A X CI wl b wr (e j) := by
  unfold k1_pay1
  rw [shapeCast_self a, shapeCast_self ci, shapeCast_self x,
    block_sum off a x ci wl wr b A X CI e e1 he0 he1 he10 ha hx hci j]

end Cert.Sage

end
-- ==== Proof.RegionArrays.lean ====
/-
  What each of the two launches leaves in its result array.

  Each launch runs the layer's body on twenty blocks of 5000 rows. Point t reads rows 5000 t, …, 5000 t + 4999 of
  the aggregate, of the node features and of the scale column, all of the two weight matrices and of the bias row,
  and writes rows 5000 t, … of the result. The twenty row blocks tile the 100000 rows (row r is in block r / 5000),
  and what point t writes is those rows of ONE whole-array function of the arrays the launch finds: the layer (with
  the maximum against zero after the first one). So after the launch the result array is that function.
-/
import proofs.«169940_j52390011076772_2_alg».proof.Proof.Gen.KernelIdeal.Frame
import proofs.«169940_j52390011076772_2_alg».proof.Proof.LayerBlock

set_option maxRecDepth 16384

noncomputable section

namespace Cert.Sage

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The first launch's result as one function of the arrays it finds: the layer, then the maximum with zero. -/
def first (c : Dev nD) : FVec Ideal S100000x128 .f32 := fun i =>
  max (layerSum (V c main_v22) (V c main_arg0) (V c main_v12) (V c main_arg2) (V c main_arg3) (V c main_arg4) i) 0

/-- Where the first launch's windows sit at grid point t: the three row-blocked inputs and the output at block
    row t, the weights and the bias at their one block. -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What grid point t writes back is rows 5000 t, … of that function. -/
theorem flushed0_eq (c : Dev nD) (t : Fin cfg0.N) :
    (dat0 V c).flushed 6 t = ((cfg0.win 6).blk t).view.read (Elt Ideal) (first V c) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S5000x1) zero2,
    View.ld_unit_zero (S := S128x128) zero2, View.ld_unit_zero (S := S128) zero1]
  funext j
  show k0_pay1 (iblk0 V c 0 t) (iblk0 V c 2 t) (iblk0 V c 1 t) (iblk0 V c 3 t) (iblk0 V c 5 t) (iblk0 V c 4 t) j
    = first V c (((cfg0.win 6).blk t).view.emb j)
  obtain ⟨e00, e01, e10, e11, e20, e21, e30, e31, e40, e50, e51, e60, e61⟩ := blocks0 t
  have h3 : (iblk0 V c 3 t : FVec Ideal S128x128 .f32) = V c main_arg2 := by
    funext y
    show V c main_arg2 (((cfg0.win 3).blk t).view.emb y) = V c main_arg2 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : (iblk0 V c 4 t : FVec Ideal S128 .f32) = V c main_arg3 := by
    funext y
    show V c main_arg3 (((cfg0.win 4).blk t).view.emb y) = V c main_arg3 y
    refine congrArg _ (funext fun a => Fin.ext ?_)
    match a with
    | ⟨0, _⟩ => show win0_4.index t (0 : Fin 1) * 128 + 1 * (y 0).val = (y 0).val; omega
  have h5 : (iblk0 V c 5 t : FVec Ideal S128x128 .f32) = V c main_arg4 := by
    funext y
    show V c main_arg4 (((cfg0.win 5).blk t).view.emb y) = V c main_arg4 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  refine (pay0_block (5000 * t.val) (iblk0 V c 0 t) (iblk0 V c 1 t) (iblk0 V c 2 t) (iblk0 V c 3 t) (iblk0 V c 5 t)
    (iblk0 V c 4 t) (V c main_v22) (V c main_arg0) (V c main_v12)
    (fun y => ((cfg0.win 6).blk t).view.emb y) (fun y => ((cfg0.win 2).blk t).view.emb y) ?_ ?_ ?_ ?_ ?_ ?_ j).trans ?_
  · intro y
    show win0_6.index t (0 : Fin 2) * 5000 + 1 * (y 0).val = 5000 * t.val + (y 0).val
    omega
  · intro y
    show win0_6.index t (1 : Fin 2) * 128 + 1 * (y 1).val = (y 1).val
    omega
  · intro y
    show win0_2.index t (0 : Fin 2) * 5000 + 1 * (y 0).val = 5000 * t.val + (y 0).val
    omega
  · intro y
    show V c main_v22 (((cfg0.win 0).blk t).view.emb y) = V c main_v22 (((cfg0.win 6).blk t).view.emb y)
    refine congrArg _ (funext fun a => Fin.ext ?_)
    match a with
    | ⟨0, _⟩ =>
      show win0_0.index t (0 : Fin 2) * 5000 + 1 * (y 0).val = win0_6.index t (0 : Fin 2) * 5000 + 1 * (y 0).val
      omega
    | ⟨1, _⟩ =>
      show win0_0.index t (1 : Fin 2) * 128 + 1 * (y 1).val = win0_6.index t (1 : Fin 2) * 128 + 1 * (y 1).val
      omega
  · intro y
    show V c main_arg0 (((cfg0.win 1).blk t).view.emb y) = V c main_arg0 (((cfg0.win 6).blk t).view.emb y)
    refine congrArg _ (funext fun a => Fin.ext ?_)
    match a with
    | ⟨0, _⟩ =>
      show win0_1.index t (0 : Fin 2) * 5000 + 1 * (y 0).val = win0_6.index t (0 : Fin 2) * 5000 + 1 * (y 0).val
      omega
    | ⟨1, _⟩ =>
      show win0_1.index t (1 : Fin 2) * 128 + 1 * (y 1).val = win0_6.index t (1 : Fin 2) * 128 + 1 * (y 1).val
      omega
  · intro y
    rfl
  · show max (layerSum (V c main_v22) (V c main_arg0) (V c main_v12) (iblk0 V c 3 t : FVec Ideal S128x128 .f32)
        (iblk0 V c 4 t : FVec Ideal S128 .f32) (iblk0 V c 5 t : FVec Ideal S128x128 .f32)
        (((cfg0.win 6).blk t).view.emb j)) 0 = first V c (((cfg0.win 6).blk t).view.emb j)
    rw [h3, h4, h5]
    rfl

/-- An index of the result array is in point t's block exactly when each coordinate is in the block's range. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- Row r lies in the block of point r / 5000: the twenty blocks tile the array. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  have hlt : (i 0).val / 5000 < grid0.N := by omega
  obtain ⟨e00, e01, e10, e11, e20, e21, e30, e31, e40, e50, e51, e60, e61⟩ := blocks0 ⟨(i 0).val / 5000, hlt⟩
  have e60' : win0_6.index ⟨(i 0).val / 5000, hlt⟩ (0 : Fin 2) = (i 0).val / 5000 := e60
  refine ⟨⟨(i 0).val / 5000, hlt⟩, flush0_6 _, ?_⟩
  rw [mem_blk0]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- After the first launch its result array is the layer with the maximum against zero, of the arrays it found. -/
theorem final0 (c : Dev nD) : (dat0 V c).arrAt 6 cfg0.N = first V c :=
  (dat0 V c).arrAt_eq_of_cover 6 (first V c) (fun t _ => flushed0_eq V c t) (cover0)

/-! ## The second launch -/

/-- The second launch's result as one function of the arrays it finds: the layer. -/
def second (c : Dev nD) : FVec Ideal S100000x128 .f32 := fun i =>
  layerSum (V c main_v33) (V c main_v23) (V c main_v12) (V c main_arg5) (V c main_arg6) (V c main_arg7) i

/-- Where the second launch's windows sit at grid point t: the three row-blocked inputs and the output at block
    row t, the weights and the bias at their one block. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What grid point t writes back is rows 5000 t, … of that function. -/
theorem flushed1_eq (c : Dev nD) (t : Fin cfg1.N) :
    (dat1 V c).flushed 6 t = ((cfg1.win 6).blk t).view.read (Elt Ideal) (second V c) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S5000x1) zero2,
    View.ld_unit_zero (S := S128x128) zero2, View.ld_unit_zero (S := S128) zero1]
  funext j
  show k1_pay1 (iblk1 V c 0 t) (iblk1 V c 2 t) (iblk1 V c 1 t) (iblk1 V c 3 t) (iblk1 V c 5 t) (iblk1 V c 4 t) j
    = second V c (((cfg1.win 6).blk t).view.emb j)
  obtain ⟨e00, e01, e10, e11, e20, e21, e30, e31, e40, e50, e51, e60, e61⟩ := blocks1 t
  have h3 : (iblk1 V c 3 t : FVec Ideal S128x128 .f32) = V c main_arg5 := by
    funext y
    show V c main_arg5 (((cfg1.win 3).blk t).view.emb y) = V c main_arg5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : (iblk1 V c 4 t : FVec Ideal S128 .f32) = V c main_arg6 := by
    funext y
    show V c main_arg6 (((cfg1.win 4).blk t).view.emb y) = V c main_arg6 y
    refine congrArg _ (funext fun a => Fin.ext ?_)
    match a with
    | ⟨0, _⟩ => show win1_4.index t (0 : Fin 1) * 128 + 1 * (y 0).val = (y 0).val; omega
  have h5 : (iblk1 V c 5 t : FVec Ideal S128x128 .f32) = V c main_arg7 := by
    funext y
    show V c main_arg7 (((cfg1.win 5).blk t).view.emb y) = V c main_arg7 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  refine (pay1_block (5000 * t.val) (iblk1 V c 0 t) (iblk1 V c 1 t) (iblk1 V c 2 t) (iblk1 V c 3 t) (iblk1 V c 5 t)
    (iblk1 V c 4 t) (V c main_v33) (V c main_v23) (V c main_v12)
    (fun y => ((cfg1.win 6).blk t).view.emb y) (fun y => ((cfg1.win 2).blk t).view.emb y) ?_ ?_ ?_ ?_ ?_ ?_ j).trans ?_
  · intro y
    show win1_6.index t (0 : Fin 2) * 5000 + 1 * (y 0).val = 5000 * t.val + (y 0).val
    omega
  · intro y
    show win1_6.index t (1 : Fin 2) * 128 + 1 * (y 1).val = (y 1).val
    omega
  · intro y
    show win1_2.index t (0 : Fin 2) * 5000 + 1 * (y 0).val = 5000 * t.val + (y 0).val
    omega
  · intro y
    show V c main_v33 (((cfg1.win 0).blk t).view.emb y) = V c main_v33 (((cfg1.win 6).blk t).view.emb y)
    refine congrArg _ (funext fun a => Fin.ext ?_)
    match a with
    | ⟨0, _⟩ =>
      show win1_0.index t (0 : Fin 2) * 5000 + 1 * (y 0).val = win1_6.index t (0 : Fin 2) * 5000 + 1 * (y 0).val
      omega
    | ⟨1, _⟩ =>
      show win1_0.index t (1 : Fin 2) * 128 + 1 * (y 1).val = win1_6.index t (1 : Fin 2) * 128 + 1 * (y 1).val
      omega
  · intro y
    show V c main_v23 (((cfg1.win 1).blk t).view.emb y) = V c main_v23 (((cfg1.win 6).blk t).view.emb y)
    refine congrArg _ (funext fun a => Fin.ext ?_)
    match a with
    | ⟨0, _⟩ =>
      show win1_1.index t (0 : Fin 2) * 5000 + 1 * (y 0).val = win1_6.index t (0 : Fin 2) * 5000 + 1 * (y 0).val
      omega
    | ⟨1, _⟩ =>
      show win1_1.index t (1 : Fin 2) * 128 + 1 * (y 1).val = win1_6.index t (1 : Fin 2) * 128 + 1 * (y 1).val
      omega
  · intro y
    rfl
  · show layerSum (V c main_v33) (V c main_v23) (V c main_v12) (iblk1 V c 3 t : FVec Ideal S128x128 .f32)
        (iblk1 V c 4 t : FVec Ideal S128 .f32) (iblk1 V c 5 t : FVec Ideal S128x128 .f32)
        (((cfg1.win 6).blk t).view.emb j) = second V c (((cfg1.win 6).blk t).view.emb j)
    rw [h3, h4, h5]
    rfl

/-- An index of the result array is in point t's block exactly when each coordinate is in the block's range. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v34).slice (win1_6.rect t)).set ↔ _
  rw [View.set_slice_whole, Rect.mem_set_unit]
  exact Iff.rfl

/-- Row r lies in the block of point r / 5000: the twenty blocks tile the array. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have hlt : (i 0).val / 5000 < grid1.N := by omega
  obtain ⟨e00, e01, e10, e11, e20, e21, e30, e31, e40, e50, e51, e60, e61⟩ := blocks1 ⟨(i 0).val / 5000, hlt⟩
  have e60' : win1_6.index ⟨(i 0).val / 5000, hlt⟩ (0 : Fin 2) = (i 0).val / 5000 := e60
  refine ⟨⟨(i 0).val / 5000, hlt⟩, flush1_6 _, ?_⟩
  rw [mem_blk1]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    omega

/-- After the second launch its result array is the layer of the arrays it found. -/
theorem final1 (c : Dev nD) : (dat1 V c).arrAt 6 cfg1.N = second V c :=
  (dat1 V c).arrAt_eq_of_cover 6 (second V c) (fun t _ => flushed1_eq V c t) (cover1)

end Cert.Sage

end
-- ==== Proof.LibSegmentCount.lean ====
/-
  An accumulating scatter along the rows, read at one slot, over the extended reals.

  The scatter has one start index per update e, a row number read as a signed integer; update e lands on row n
  exactly when that integer is n, and an index outside the rows lands nowhere. So slot n of the result is the
  operand's slot plus the sum of the updates whose start index is n. This is stated for the two layouts a
  segment sum is written in: flat updates [E] into [N], and one-column updates [E, 1] into [N, 1]. Scattering
  ones into zeros therefore gives, in either layout, the number of updates whose index is n: a natural number,
  so a real one. Last, for a natural k, a · (1 / max(k, 1)) = a / max(k, 1) for every extended real a, infinite
  ones included: the divisor is a nonzero real, and dividing by it is multiplying by its inverse.
-/
import Idealize.ShloMosaic.PureOps.Ideal
import Idealize.ShloMosaic.Lib.ValueIdx

noncomputable section

namespace Cert.Lib

open Idealize.ShloMosaic Idealize.ShloMosaic.ValueIdx

variable {N E w : Nat}

/-- A window of one row starting at the signed integer z lies inside N rows exactly when z is a row number. -/
private theorem row_window_iff (z : Int) (n : Fin N)
    (h : 0 ≤ z + ((0 : Nat) : Int) ∧ z + ((0 : Nat) : Int) < (N : Int)) :
    (z + ((0 : Nat) : Int)).toNat = n.val ↔ z = (n.val : Int) := by
  omega

/-- Flat updates [E] scattered into [N] through start indices [E, 1]: update e lands on slot n exactly when its
    start index, read signed, is n. -/
theorem resultIdx_flat (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at h1 h2 h3 h4
  subst h1 h2 h3 h4
  have hs : ∀ a, ScatterDims.start ⟨[], [0], [0], 1, wf⟩ (ix1 e) idx a = (idx (ix2 e 0)).toInt := by
    intro a
    have ha : a = 0 := Subsingleton.elim _ _
    subst ha
    unfold ScatterDims.start
    rw [dif_pos (by simp)]
    congr 2
    funext b
    match b with
    | ⟨0, _⟩ => rfl
    | ⟨1, _⟩ => rfl
  have hw : ∀ a, ScatterDims.window ⟨[], [0], [0], 1, wf⟩ (ix1 e) a = 0 := by
    intro a
    have ha : a = 0 := Subsingleton.elim _ _
    subst ha
    unfold ScatterDims.window
    rw [dif_neg (by simp [ScatterDims.sKept, Shape.kept])]
  unfold ScatterDims.resultIdx?
  simp only [hs, hw]
  constructor
  · intro h
    split at h
    · rename_i hc
      have h0 := congrArg Fin.val (congrFun (Option.some.inj h) 0)
      exact (row_window_iff _ n (hc 0)).1 h0
    · exact absurd h (by simp)
  · intro h
    have hc : ∀ a : Fin 1, 0 ≤ (idx (ix2 e 0)).toInt + ((0 : Nat) : Int) ∧ (idx (ix2 e 0)).toInt + ((0 : Nat) : Int) < ((![N] a : Nat) : Int) := by
      intro a
      have ha : a = 0 := Subsingleton.elim _ _
      subst ha
      have := n.isLt
      show 0 ≤ (idx (ix2 e 0)).toInt + ((0 : Nat) : Int) ∧ (idx (ix2 e 0)).toInt + ((0 : Nat) : Int) < (N : Int)
      omega
    rw [dif_pos hc]
    congr 1
    funext a
    have ha : a = 0 := Subsingleton.elim _ _
    subst ha
    exact Fin.ext ((row_window_iff _ n (hc 0)).2 h)

/-- One-column updates [E, 1] scattered into [N, 1] through start indices [E, 1]: update (e, 0) lands on slot
    (n, 0) exactly when its start index, read signed, is n. -/
theorem resultIdx_col (d : ScatterDims ⟨2, ![N, 1]⟩ ⟨2, ![E, 1]⟩ ⟨2, ![E, 1]⟩) (h1 : d.updateWindowDims = [1])
    (h2 : d.insertedWindowDims = [0]) (h3 : d.scatterDimsToOperandDims = [0]) (h4 : d.indexVectorDim = 1)
    (idx : IVec ⟨2, ![E, 1]⟩ w) (e : Fin E) (q : Fin 1) (n : Fin N) (r : Fin 1) :
    d.resultIdx? (ix2 e q) idx = some (ix2 n r) ↔ (idx (ix2 e 0)).toInt = (n.val : Int) := by
  obtain ⟨uw, iw, sd, iv, wf⟩ := d
  simp only at h1 h2 h3 h4
  subst h1 h2 h3 h4
  have hq : q = 0 := Subsingleton.elim _ _
  have hr : r.val = 0 := by have := r.isLt; omega
  subst hq
  have hs : ∀ a : Fin 2, ScatterDims.start ⟨[1], [0], [0], 1, wf⟩ (ix2 e 0) idx a
      = if a.val = 0 then (idx (ix2 e 0)).toInt else 0 := by
    intro a
    unfold ScatterDims.start
    match a with
    | ⟨0, _⟩ =>
      rw [dif_pos (by simp)]
      show (idx _).toInt = (idx (ix2 e 0)).toInt
      congr 2
      funext b
      match b with
      | ⟨0, _⟩ => rfl
      | ⟨1, _⟩ => rfl
    | ⟨1, _⟩ =>
      rw [dif_neg (by simp)]
      rfl
  have hw : ∀ a : Fin 2, ScatterDims.window ⟨[1], [0], [0], 1, wf⟩ (ix2 e (0 : Fin 1)) a = 0 := by
    intro a
    unfold ScatterDims.window
    match a with
    | ⟨0, _⟩ => rw [dif_neg (by simp [ScatterDims.sKept, Shape.kept])]
    | ⟨1, _⟩ => rw [dif_pos (by simp [ScatterDims.sKept, Shape.kept])]; rfl
  unfold ScatterDims.resultIdx?
  simp only [hs, hw]
  constructor
  · intro h
    split at h
    · rename_i hc
      have h0 := congrArg Fin.val (congrFun (Option.some.inj h) 0)
      exact (row_window_iff _ n (hc 0)).1 h0
    · exact absurd h (by simp)
  · intro h
    refine (dif_pos ?_).trans ?_
    · intro a
      match a with
      | ⟨0, _⟩ =>
        have := n.isLt
        show 0 ≤ (idx (ix2 e 0)).toInt + ((0 : Nat) : Int) ∧ (idx (ix2 e 0)).toInt + ((0 : Nat) : Int) < (N : Int)
        omega
      | ⟨1, _⟩ =>
        show 0 ≤ (0 : Int) + ((0 : Nat) : Int) ∧ (0 : Int) + ((0 : Nat) : Int) < ((1 : Nat) : Int)
        omega
    · congr 1
      funext a
      match a with
      | ⟨0, _⟩ =>
        apply Fin.ext
        show ((idx (ix2 e 0)).toInt + ((0 : Nat) : Int)).toNat = n.val
        omega
      | ⟨1, _⟩ =>
        apply Fin.ext
        show ((0 : Int) + ((0 : Nat) : Int)).toNat = r.val
        omega

/-- Slot n of a flat accumulating scatter: the operand's slot plus the sum of the updates whose index is n. -/
theorem hostScatterAdd_flat_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    have h := (Finset.mem_filter.1 hj).2
    rw [eq_ix1 j] at h
    exact Finset.mem_filter.2 ⟨Finset.mem_univ _, (resultIdx_flat d h1 h2 h3 h4 idx _ n).1 h⟩
  · intro e he
    exact Finset.mem_filter.2 ⟨Finset.mem_univ _,
      (resultIdx_flat d h1 h2 h3 h4 idx e n).2 (Finset.mem_filter.1 he).2⟩
  · intro j _
    exact (eq_ix1 j).symm
  · intro e _
    rfl
  · intro j _
    exact congrArg upd (eq_ix1 j)

/-- Slot (n, 0) of a one-column accumulating scatter: the operand's slot plus the sum of the updates whose index
    is n. -/
theorem hostScatterAdd_col_apply (d : ScatterDims ⟨2, ![N, 1]⟩ ⟨2, ![E, 1]⟩ ⟨2, ![E, 1]⟩)
    (h1 : d.updateWindowDims = [1]) (h2 : d.insertedWindowDims = [0]) (h3 : d.scatterDimsToOperandDims = [0])
    (h4 : d.indexVectorDim = 1) (x : (⟨2, ![N, 1]⟩ : Shape).Idx → EReal) (idx : IVec ⟨2, ![E, 1]⟩ w)
    (upd : (⟨2, ![E, 1]⟩ : Shape).Idx → EReal) (n : Fin N) (r : Fin 1) :
    Ideal.hostScatterAdd d x idx upd (ix2 n r)
      = x (ix2 n r) + ∑ e ∈ Finset.univ.filter (fun e : Fin E => (idx (ix2 e 0)).toInt = (n.val : Int)), upd (ix2 e 0) := by
  unfold Ideal.hostScatterAdd
  congr 1
  have hj1 : ∀ j : (⟨2, ![E, 1]⟩ : Shape).Idx, j = ix2 (j 0 : Fin E) (0 : Fin 1) := fun j => by
    funext a
    match a with
    | ⟨0, _⟩ => rfl
    | ⟨1, _⟩ => exact Fin.ext (by have := idx2_lt1 j; show (j 1).val = 0; omega)
  refine Finset.sum_nbij' (fun j => (j 0 : Fin E)) (fun e => ix2 e (0 : Fin 1)) ?_ ?_ ?_ ?_ ?_
  · intro j hj
    have h := (Finset.mem_filter.1 hj).2
    rw [hj1 j] at h
    exact Finset.mem_filter.2 ⟨Finset.mem_univ _, (resultIdx_col d h1 h2 h3 h4 idx _ 0 n r).1 h⟩
  · intro e he
    exact Finset.mem_filter.2 ⟨Finset.mem_univ _,
      (resultIdx_col d h1 h2 h3 h4 idx e 0 n r).2 (Finset.mem_filter.1 he).2⟩
  · intro j _
    exact (hj1 j).symm
  · intro e _
    rfl
  · intro j _
    exact congrArg upd (hj1 j)

/-- The number of updates whose start index, read signed, is the row n. -/
def landCount (idx : IVec ⟨2, ![E, 1]⟩ w) (n : Fin N) : Nat :=
  (Finset.univ.filter (fun e : Fin E => (idx (ix2 e 0)).toInt = (n.val : Int))).card

/-- A sum of ones over a finite set is the set's size, a real number. -/
theorem sum_ones_coe {ι : Type*} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_add, Nat.cast_one, EReal.coe_add,
      EReal.coe_one, add_comm]

/-- Ones scattered into zeros, flat layout: slot n counts the updates whose index is n. -/
theorem scatter_ones_flat (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (idx : IVec ⟨2, ![E, 1]⟩ w) (n : Fin N) :
    Ideal.hostScatterAdd d (fun _ => 0) idx (fun _ => 1) (ix1 n) = ((landCount idx n : ℝ) : EReal) := by
  rw [hostScatterAdd_flat_apply d h1 h2 h3 h4, zero_add, sum_ones_coe]; rfl

/-- Ones scattered into zeros, one-column layout: slot (n, 0) counts the updates whose index is n. -/
theorem scatter_ones_col (d : ScatterDims ⟨2, ![N, 1]⟩ ⟨2, ![E, 1]⟩ ⟨2, ![E, 1]⟩) (h1 : d.updateWindowDims = [1])
    (h2 : d.insertedWindowDims = [0]) (h3 : d.scatterDimsToOperandDims = [0]) (h4 : d.indexVectorDim = 1)
    (idx : IVec ⟨2, ![E, 1]⟩ w) (n : Fin N) (r : Fin 1) :
    Ideal.hostScatterAdd d (fun _ => 0) idx (fun _ => 1) (ix2 n r) = ((landCount idx n : ℝ) : EReal) := by
  rw [hostScatterAdd_col_apply d h1 h2 h3 h4, zero_add, sum_ones_coe]; rfl

/-- For a natural k, a · (1 / max(k, 1)) = a / max(k, 1) on every extended real a: the divisor is a real number
    that is at least one. -/
theorem mul_inv_max_count (a : EReal) (k : Nat) :
    a * Ideal.div 1 (max (((k : ℝ) : EReal)) 1) = Ideal.div a (max (((k : ℝ) : EReal)) 1) := by
  have hm : max (((k : ℝ) : EReal)) 1 = (((max (k : ℝ) 1 : ℝ)) : EReal) := by
    rw [← EReal.coe_one]; exact (EReal.coe_strictMono.monotone.map_max).symm
  have hne : max (k : ℝ) 1 ≠ 0 := (lt_of_lt_of_le one_pos (le_max_right _ _)).ne'
  rw [hm, Ideal.div_coe hne, Ideal.div_coe hne, one_mul]

end Cert.Lib

end
-- ==== Proof.HostLayer.lean ====
/-
  The host side of both programs, and the law that joins the two layers.

  Both programs aggregate on the host in the same way: edge e carries the features of node src e (a negative
  index wrapped by adding N) to node dst e, and a node's aggregate is the sum of what it receives. Both count a
  node's incoming edges by scattering ones into zeros — the kernel's program into a flat [N] array, the
  reference into an [N, 1] column — and either way slot n holds the number k n of edges with dst e = n.

  The reference divides the aggregate row by max(k n, 1) and computes (mean · W_l + b) + X · W_r. The kernel's
  program passes the column 1 / max(k n, 1) to the launch, which multiplies the aggregate row by it and
  computes (mean · W_l + X · W_r) + b. The divisor is a real number that is at least one, so
  a · (1 / max(k, 1)) = a / max(k, 1) for every extended real a, and sums of extended reals may be regrouped
  and reordered freely; nothing here needs the inputs to be finite.
-/
import proofs.«169940_j52390011076772_2_alg».proof.Defs
import proofs.«169940_j52390011076772_2_alg».proof.Proof.Gen.KernelIdeal
import proofs.«169940_j52390011076772_2_alg».proof.Proof.Gen.ReferenceIdeal
import proofs.«169940_j52390011076772_2_alg».proof.Proof.LibSegmentCount
import proofs.«169940_j52390011076772_2_alg».proof.Proof.LayerBlock
import Idealize.ShloMosaic.Lib.IdealHost
import Idealize.ShloMosaic.Lib.Pipeline.Value

noncomputable section

namespace Cert.Sage

open Cert.KernelIdeal Cert.KernelIdeal.Gen Idealize.ShloMosaic Idealize.ShloMosaic.ValueIdx

/-- The edge list: row 0 the sources, row 1 the destinations. -/
abbrev Edges : Type := (⟨S2x1600000, .i32⟩ : BufTy).Contents (Elt Ideal)

/-- The sources, as a flat array. -/
def srcRow (ei : Edges) : IVec S1600000 32 :=
  shapeCast _ (extractStridedSlice S1x1600000 ![0, 0] ei slices_S2x1600000_S1x1600000_0_0) shapeCasts_S1x1600000_S1600000

/-- The destinations, as a flat array. -/
def dstRow (ei : Edges) : IVec S1600000 32 :=
  shapeCast _ (extractStridedSlice S1x1600000 ![1, 0] ei slices_S2x1600000_S1x1600000_1_0) shapeCasts_S1x1600000_S1600000

/-- The destinations as the [E, 1] start indices of a scatter. -/
def dstCol (ei : Edges) : IVec S1600000x1 32 :=
  broadcastInDim S1600000x1 ![0] bcast_S1600000_S1600000x1_0 (dstRow ei)

/-- A node's aggregate from the rows of sources and destinations: edge e carries the features of node src e (a
    negative index wrapped by adding N) to node dst e, and each node sums what it receives. -/
def aggregateRows (feat : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A node's aggregate over the edge list. -/
def aggregate (feat : FVec Ideal S100000x128 .f32) (ei : Edges) : FVec Ideal S100000x128 .f32 :=
  aggregateRows feat (srcRow ei) (dstRow ei)

/-- The kernel's program's scale column: 1 / max(number of incoming edges, 1), counted in a flat array. -/
def invCount (ei : Edges) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32)) (dstCol ei)
          (broadcastInDim S1600000 ![] bcast_S_S1600000 (constant (F := Ideal) S_ .f32 0x3F800000#32)))
        (broadcastInDim S100000 ![] bcast_S_S100000 (constant (F := Ideal) S_ .f32 0x3F800000#32))))

/-- The reference's divisor column: max(number of incoming edges, 1), counted in an [N, 1] column. -/
def countCol (ei : Edges) : FVec Ideal S100000x1 .f32 :=
  maximumf
    (Host.scatterAdd (F := Ideal) Cert.ReferenceIdeal.scatter_S100000x1_S1600000x1_S1600000x1_1_0_0_1
      (broadcastInDim S100000x1 ![] Cert.ReferenceIdeal.Gen.bcast_S_S100000x1 (constant (F := Ideal) S_ .f32 0x00000000#32))
      (dstCol ei)
      (broadcastInDim S1600000x1 ![] Cert.ReferenceIdeal.Gen.bcast_S_S1600000x1 (constant (F := Ideal) S_ .f32 0x3F800000#32)))
    (broadcastInDim S100000x1 ![] Cert.ReferenceIdeal.Gen.bcast_S_S100000x1 (constant (F := Ideal) S_ .f32 0x3F800000#32))

/-- The reference's layer, as its host operations compose: (aggregate / count) · W_l + b, then + X · W_r. -/
def refLayer (feat : FVec Ideal S100000x128 .f32) (ei : Edges) (Wl : FVec Ideal S128x128 .f32)
    (B : FVec Ideal S128 .f32) (Wr : FVec Ideal S128x128 .f32) : FVec Ideal S100000x128 .f32 :=
  addf
    (addf
      (Host.dotGeneral (F := Ideal) Cert.ReferenceIdeal.dot_S100000x128_S128x128_S100000x128_1_0_0_1_n_n none
        (Host.divf (F := Ideal) (aggregate feat ei)
          (broadcastInDim S100000x128 ![0, 1] Cert.ReferenceIdeal.Gen.bcast_S100000x1_S100000x128_0_1 (countCol ei))) Wl)
      (broadcastInDim S100000x128 ![0, 1] Cert.ReferenceIdeal.Gen.bcast_S1x128_S100000x128_0_1
        (broadcastInDim S1x128 ![1] Cert.ReferenceIdeal.Gen.bcast_S128_S1x128_1 B)))
    (Host.dotGeneral (F := Ideal) Cert.ReferenceIdeal.dot_S100000x128_S128x128_S100000x128_1_0_0_1_n_n none feat Wr)

/-- Zeros into which both counts are scattered, and the ones they scatter. -/
private theorem zeros_eq {T : Shape} (h : (⟨0, ![]⟩ : Shape).BroadcastsInDim T ![]) :
    (broadcastInDim T ![] h (constant (F := Ideal) S_ .f32 0x00000000#32) : FVec Ideal T .f32) = fun _ => 0 :=
  funext fun j => (broadcastInDim_scalar_apply h _ j).trans Ideal.ofBits_zero_f32

private theorem ones_eq {T : Shape} (h : (⟨0, ![]⟩ : Shape).BroadcastsInDim T ![]) :
    (broadcastInDim T ![] h (constant (F := Ideal) S_ .f32 0x3F800000#32) : FVec Ideal T .f32) = fun _ => 1 :=
  funext fun j => (broadcastInDim_scalar_apply h _ j).trans Ideal.ofBits_one_f32

/-- The reference's divisor at node n: the larger of the number of its incoming edges and one. -/
theorem countCol_apply (ei : Edges) (n : Fin 100000) :
    countCol ei (ix2 n (0 : Fin 1)) = max (((Cert.Lib.landCount (dstCol ei) n : ℝ) : EReal)) 1 := by
  unfold countCol Host.scatterAdd
  rw [maximumf_apply, zeros_eq, ones_eq, ones_eq, Ideal.hostScatterAdd_def,
    Cert.Lib.scatter_ones_col _ rfl rfl rfl rfl]

/-- The kernel's program's scale at node n: one over the same divisor. -/
theorem invCount_apply (ei : Edges) (n : Fin 100000) :
    invCount ei (ix2 n (0 : Fin 1)) = Ideal.div 1 (max (((Cert.Lib.landCount (dstCol ei) n : ℝ) : EReal)) 1) := by
  unfold invCount Host.scatterAdd
  rw [broadcastInDim_apply ![0] bcast_S100000_S100000x1_0 _ (ix2 n (0 : Fin 1)) (ix1 n) (fun a => by
    match a with
    | ⟨0, _⟩ => rfl)]
  rw [hostDivf_apply, maximumf_apply, zeros_eq, ones_eq, ones_eq, Ideal.hostScatterAdd_def,
    Cert.Lib.scatter_ones_flat _ rfl rfl rfl rfl]

/-- The reference's mean is the aggregate with every row scaled by the kernel's program's column. -/
theorem mean_eq (agg : FVec Ideal S100000x128 .f32) (ei : Edges) :
    Host.divf (F := Ideal) agg
        (broadcastInDim S100000x128 ![0, 1] Cert.ReferenceIdeal.Gen.bcast_S100000x1_S100000x128_0_1 (countCol ei))
      = scaledRows agg (invCount ei) := by
  funext i
  obtain ⟨n, k, rfl⟩ : ∃ (n : Fin 100000) (k : Fin 128), i = ix2 n k := ⟨i 0, i 1, eq_ix2 i⟩
  rw [hostDivf_apply]
  rw [broadcastInDim_apply ![0, 1] Cert.ReferenceIdeal.Gen.bcast_S100000x1_S100000x128_0_1 _ (ix2 n k) (ix2 n (0 : Fin 1))
    (fun a => by
      match a with
      | ⟨0, _⟩ => rfl
      | ⟨1, _⟩ => rfl)]
  unfold scaledRows
  show Ideal.div (agg (ix2 n k)) (countCol ei (ix2 n 0)) = agg (ix2 n k) * invCount ei (ix2 n 0)
  rw [countCol_apply, invCount_apply]
  exact (Cert.Lib.mul_inv_max_count _ _).symm

/-- THE LAW: the reference's layer is the kernel's layer of the aggregate, the features and the scale column. -/
theorem refLayer_eq (feat : FVec Ideal S100000x128 .f32) (ei : Edges) (Wl : FVec Ideal S128x128 .f32)
    (B : FVec Ideal S128 .f32) (Wr : FVec Ideal S128x128 .f32) :
    refLayer feat ei Wl B Wr = layerSum (aggregate feat ei) feat (invCount ei) Wl B Wr := by
  funext i
  obtain ⟨n, k, rfl⟩ : ∃ (n : Fin 100000) (k : Fin 128), i = ix2 n k := ⟨i 0, i 1, eq_ix2 i⟩
  unfold refLayer layerSum
  rw [addf_apply, addf_apply, mean_eq]
  rw [broadcastInDim_apply ![0, 1] Cert.ReferenceIdeal.Gen.bcast_S1x128_S100000x128_0_1 _ (ix2 n k) (ix2 (0 : Fin 1) k)
    (fun a => by
      match a with
      | ⟨0, _⟩ => rfl
      | ⟨1, _⟩ => rfl)]
  rw [broadcastInDim_apply ![1] Cert.ReferenceIdeal.Gen.bcast_S128_S1x128_1 _ (ix2 (0 : Fin 1) k) (ix1 k) (fun a => by
    match a with
    | ⟨0, _⟩ => rfl)]
  exact add_right_comm _ _ _

end Cert.Sage

end
-- ==== Proof.RefStages.lean ====
/-
  The reference's result as two layers.

  The reference program is one straight line of host operations; read back, its result is its layer applied to
  the node features, the maximum of that with zero, and its layer applied again to the outcome with the second
  set of weights — both times over the same edge list.
-/
import proofs.«169940_j52390011076772_2_alg».proof.Proof.Gen.ReferenceIdeal.Run
import proofs.«169940_j52390011076772_2_alg».proof.Proof.HostLayer

noncomputable section

namespace Cert.Sage

open Cert.KernelIdeal Cert.KernelIdeal.Gen Idealize.ShloMosaic Idealize.ShloMosaic.TcCoe

/-- The hidden features: the first layer, then the maximum with zero. -/
def hidden (x : FVec Ideal S100000x128 .f32) (ei : Edges) (Wl1 : FVec Ideal S128x128 .f32) (b1 : FVec Ideal S128 .f32)
    (Wr1 : FVec Ideal S128x128 .f32) : FVec Ideal S100000x128 .f32 :=
  maximumf (refLayer x ei Wl1 b1 Wr1)
    (broadcastInDim S100000x128 ![] bcast_S_S100000x128 (constant (F := Ideal) S_ .f32 0x00000000#32))

/-- Both layers. -/
def twoLayers (x : FVec Ideal S100000x128 .f32) (ei : Edges) (Wl1 : FVec Ideal S128x128 .f32) (b1 : FVec Ideal S128 .f32)
    (Wr1 Wl2 : FVec Ideal S128x128 .f32) (b2 : FVec Ideal S128 .f32) (Wr2 : FVec Ideal S128x128 .f32) :
    FVec Ideal S100000x128 .f32 :=
  refLayer (hidden x ei Wl1 b1 Wr1) ei Wl2 b2 Wr2

/-- The reference's run ends with both layers of its arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 (F := Ideal) m c
      = twoLayers (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  unfold Cert.ReferenceIdeal.Value.res_main_v52
  rfl

end Cert.Sage

end
-- ==== Proof.KernelValue.lean ====
/-
  What the kernel's program ends with.

  The program is: a stretch of host operations (the edge rows, the scale column, the first aggregate), the first
  launch, a second stretch (the aggregate of the hidden features), the second launch. Reading the buffers stretch by
  stretch: the first launch finds the aggregate of the node features, the node features and the scale column, and
  leaves the hidden features — the reference's first layer with the maximum against zero; no later step writes the
  scale column, the edge rows or the weights; the second launch finds the aggregate of the hidden features and leaves
  the reference's second layer of them. So every run of the program ends with the result buffer holding both
  layers of the arguments, and the arguments as they were.
-/
import proofs.«169940_j52390011076772_2_alg».proof.Proof.Gen.KernelIdeal.Frame
import proofs.«169940_j52390011076772_2_alg».proof.Proof.RegionArrays
import proofs.«169940_j52390011076772_2_alg».proof.Proof.RefStages
import Idealize.ShloMosaic.Lib.StableHlo.Run

set_option maxRecDepth 16384

noncomputable section

namespace Cert.Sage

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The first stretch: what the first launch finds -/

/-- The first aggregate: of the node features over the edge list. -/
theorem entry0_agg (c : Dev nD) : V1 m ρ c main_v22 = aggregate (m ((c : Thread nD τ).loc main_arg0)) (m ((c : Thread nD τ).loc main_arg1)) := by
  show StableHlo.after hostOps0 (W0 m ρ c) (Proc.devRef .tc main_v22) = _
  after_results_simp <;> rfl

/-- The scale column: one over the larger of the in-degree and one. -/
theorem entry0_scale (c : Dev nD) : V1 m ρ c main_v12 = invCount (m ((c : Thread nD τ).loc main_arg1)) := by
  show StableHlo.after hostOps0 (W0 m ρ c) (Proc.devRef .tc main_v12) = _
  after_results_simp <;> rfl

/-- The rows of sources and of destinations. -/
theorem entry0_src (c : Dev nD) : V1 m ρ c main_v1 = srcRow (m ((c : Thread nD τ).loc main_arg1)) := by
  show StableHlo.after hostOps0 (W0 m ρ c) (Proc.devRef .tc main_v1) = _
  after_results_simp <;> rfl

theorem entry0_dst (c : Dev nD) : V1 m ρ c main_v3 = dstRow (m ((c : Thread nD τ).loc main_arg1)) := by
  show StableHlo.after hostOps0 (W0 m ρ c) (Proc.devRef .tc main_v3) = _
  after_results_simp <;> rfl

/-- No operation of the stretch writes an argument. -/
theorem entry0_arg0 (c : Dev nD) : V1 m ρ c main_arg0 = (m ((c : Thread nD τ).loc main_arg0)) := by
  show StableHlo.after hostOps0 (W0 m ρ c) (Proc.devRef .tc main_arg0) = _
  after_results_simp <;> rfl
theorem entry0_arg2 (c : Dev nD) : V1 m ρ c main_arg2 = (m ((c : Thread nD τ).loc main_arg2)) := by
  show StableHlo.after hostOps0 (W0 m ρ c) (Proc.devRef .tc main_arg2) = _
  after_results_simp <;> rfl
theorem entry0_arg3 (c : Dev nD) : V1 m ρ c main_arg3 = (m ((c : Thread nD τ).loc main_arg3)) := by
  show StableHlo.after hostOps0 (W0 m ρ c) (Proc.devRef .tc main_arg3) = _
  after_results_simp <;> rfl
theorem entry0_arg4 (c : Dev nD) : V1 m ρ c main_arg4 = (m ((c : Thread nD τ).loc main_arg4)) := by
  show StableHlo.after hostOps0 (W0 m ρ c) (Proc.devRef .tc main_arg4) = _
  after_results_simp <;> rfl
theorem entry0_arg5 (c : Dev nD) : V1 m ρ c main_arg5 = (m ((c : Thread nD τ).loc main_arg5)) := by
  show StableHlo.after hostOps0 (W0 m ρ c) (Proc.devRef .tc main_arg5) = _
  after_results_simp <;> rfl
theorem entry0_arg6 (c : Dev nD) : V1 m ρ c main_arg6 = (m ((c : Thread nD τ).loc main_arg6)) := by
  show StableHlo.after hostOps0 (W0 m ρ c) (Proc.devRef .tc main_arg6) = _
  after_results_simp <;> rfl
theorem entry0_arg7 (c : Dev nD) : V1 m ρ c main_arg7 = (m ((c : Thread nD τ).loc main_arg7)) := by
  show StableHlo.after hostOps0 (W0 m ρ c) (Proc.devRef .tc main_arg7) = _
  after_results_simp <;> rfl

/-! ## The first launch leaves the hidden features -/

theorem first_entry (c : Dev nD) : first (V1 m ρ) c = hidden (m ((c : Thread nD τ).loc main_arg0)) (m ((c : Thread nD τ).loc main_arg1)) (m ((c : Thread nD τ).loc main_arg2)) (m ((c : Thread nD τ).loc main_arg3)) (m ((c : Thread nD τ).loc main_arg4)) := by
  funext i
  show max (layerSum (V1 m ρ c main_v22) (V1 m ρ c main_arg0) (V1 m ρ c main_v12) (V1 m ρ c main_arg2)
    (V1 m ρ c main_arg3) (V1 m ρ c main_arg4) i) 0 = _
  rw [entry0_agg, entry0_arg0, entry0_scale, entry0_arg2, entry0_arg3, entry0_arg4, ← refLayer_eq]
  unfold hidden
  rw [maximumf_apply, broadcastInDim_scalar_apply]
  exact congrArg (max _) Ideal.ofBits_zero_f32.symm

/-! ## Between the launches: the first launch writes its result array only -/

theorem mid_hidden (c : Dev nD) : W2 m ρ c (Proc.devRef .tc main_v23) = hidden (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((final0 (V1 m ρ) c).trans (first_entry m ρ c))

theorem mid_scale (c : Dev nD) : W2 m ρ c (Proc.devRef .tc main_v12) = invCount (m ((c : Thread nD τ).loc main_arg1)) :=
  ((W2_arr m ρ c 2).trans (((dat0 (V1 m ρ) c).arrAt_in 2 rfl _).trans (A_eq0 (V1 m ρ) c 2))).trans (entry0_scale m ρ c)

theorem mid_src (c : Dev nD) : W2 m ρ c (Proc.devRef .tc main_v1) = srcRow (m ((c : Thread nD τ).loc main_arg1)) :=
  (W2_of_ne m ρ c main_v1 (by decide)).trans (entry0_src m ρ c)

theorem mid_dst (c : Dev nD) : W2 m ρ c (Proc.devRef .tc main_v3) = dstRow (m ((c : Thread nD τ).loc main_arg1)) :=
  (W2_of_ne m ρ c main_v3 (by decide)).trans (entry0_dst m ρ c)

theorem mid_arg5 (c : Dev nD) : W2 m ρ c (Proc.devRef .tc main_arg5) = (m ((c : Thread nD τ).loc main_arg5)) :=
  (W2_of_ne m ρ c main_arg5 (by decide)).trans (entry0_arg5 m ρ c)

theorem mid_arg6 (c : Dev nD) : W2 m ρ c (Proc.devRef .tc main_arg6) = (m ((c : Thread nD τ).loc main_arg6)) :=
  (W2_of_ne m ρ c main_arg6 (by decide)).trans (entry0_arg6 m ρ c)

theorem mid_arg7 (c : Dev nD) : W2 m ρ c (Proc.devRef .tc main_arg7) = (m ((c : Thread nD τ).loc main_arg7)) :=
  (W2_of_ne m ρ c main_arg7 (by decide)).trans (entry0_arg7 m ρ c)

/-! ## The second stretch: what the second launch finds -/

/-- The second aggregate: of the first launch's result, over the same rows of sources and destinations. -/
theorem entry1_agg (c : Dev nD) : V3 m ρ c main_v33 = aggregateRows (W2 m ρ c (Proc.devRef .tc main_v23)) (W2 m ρ c (Proc.devRef .tc main_v1))
      (W2 m ρ c (Proc.devRef .tc main_v3)) := by
  show StableHlo.after hostOps1 (W2 m ρ c) (Proc.devRef .tc main_v33) = _
  after_results_simp <;> rfl

/-- No operation of the stretch writes the hidden features, the scale column or a weight. -/
theorem entry1_v23 (c : Dev nD) : V3 m ρ c main_v23 = W2 m ρ c (Proc.devRef .tc main_v23) := by
  show StableHlo.after hostOps1 (W2 m ρ c) (Proc.devRef .tc main_v23) = _
  after_results_simp <;> rfl
theorem entry1_v12 (c : Dev nD) : V3 m ρ c main_v12 = W2 m ρ c (Proc.devRef .tc main_v12) := by
  show StableHlo.after hostOps1 (W2 m ρ c) (Proc.devRef .tc main_v12) = _
  after_results_simp <;> rfl
theorem entry1_arg5 (c : Dev nD) : V3 m ρ c main_arg5 = W2 m ρ c (Proc.devRef .tc main_arg5) := by
  show StableHlo.after hostOps1 (W2 m ρ c) (Proc.devRef .tc main_arg5) = _
  after_results_simp <;> rfl
theorem entry1_arg6 (c : Dev nD) : V3 m ρ c main_arg6 = W2 m ρ c (Proc.devRef .tc main_arg6) := by
  show StableHlo.after hostOps1 (W2 m ρ c) (Proc.devRef .tc main_arg6) = _
  after_results_simp <;> rfl
theorem entry1_arg7 (c : Dev nD) : V3 m ρ c main_arg7 = W2 m ρ c (Proc.devRef .tc main_arg7) := by
  show StableHlo.after hostOps1 (W2 m ρ c) (Proc.devRef .tc main_arg7) = _
  after_results_simp <;> rfl

/-! ## The second launch leaves both layers -/

theorem second_entry (c : Dev nD) : second (V3 m ρ) c = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  show layerSum (V3 m ρ c main_v33) (V3 m ρ c main_v23) (V3 m ρ c main_v12) (V3 m ρ c main_arg5)
    (V3 m ρ c main_arg6) (V3 m ρ c main_arg7) i = _
  rw [entry1_agg, entry1_v23, entry1_v12, entry1_arg5, entry1_arg6, entry1_arg7, mid_hidden, mid_scale, mid_src, mid_dst,
    mid_arg5, mid_arg6, mid_arg7]
  unfold twoLayers
  rw [refLayer_eq]
  unfold aggregate
  rfl

/-- The result buffer at the end of the program. -/
theorem end_value (c : Dev nD) : W4 m ρ c (Proc.devRef .tc main_v34) = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans ((final1 (V3 m ρ) c).trans (second_entry m ρ c))

/-! ## The run -/

-- the launch theorem's implicit arguments are found by unifying its conclusion with this one, which takes unfolding
-- plain definitions in a metavariable's type
set_option backward.isDefEq.respectTransparency.types false in
/-- Every weakly fair execution of the program terminates, nothing faulting, with the result buffer at both layers of
    the arguments and every argument as launched: the launch over the program's four segments, with every buffer
    that outlives a launch read against the final state. -/
theorem run_value : θ_run defs (onTc (τ := τ) (main (F := Ideal))) ⟨m, fun _ => 0, ρ⟩ (fun r => ∀ c : Dev nD,
      r.2.mem ((c.tc : Thread nD τ).loc main_v34) = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v34 (by decide))).trans (end_value m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage

end
-- ==== Proof.lean ====
/-
  A two-layer graph convolution with mean aggregation: the kernel's program against its reference, over the
  extended reals.

  One layer maps node features X [N, 128] to  mean · W_l + b + X · W_r,  where row n of `mean` is the sum of the
  features of the sources of the edges into node n, divided by max(k n, 1), k n the number of those edges; the
  first layer is followed by the maximum with zero. The reference computes this with host operations alone. The
  kernel's program computes the edge sums and the column 1 / max(k n, 1) on the host, and launches, per layer, a
  kernel that takes 5000 rows at a time, scales each row of the edge sums by its entry of the column, and
  computes (mean · W_l + X · W_r) + b with two matrix products.

  Over the extended reals the two agree entry by entry:
  * both count the edges into a node by scattering ones into zeros, one into a flat array and one into a
    column; either way the slot of node n holds the natural number k n (Proof/LibSegmentCount.lean);
  * max(k n, 1) is a real number that is at least one, so a · (1 / max(k n, 1)) = a / max(k n, 1) for every
    extended real a, whether finite or not (the same file);
  * a block of rows of a matrix product depends on those rows of the left factor only, so the kernel's twenty
    blocks are the rows of the reference's one product (Proof/LibRowBlockProduct.lean, Proof/LayerBlock.lean,
    Proof/RegionArrays.lean), and changing a float's format is the identity here;
  * (p + q) + b = (p + b) + q: sums of extended reals regroup and reorder freely (Proof/HostLayer.lean).
  No step uses that the inputs are finite. The second layer reads the first one's result, so the equality of
  the hidden features is what makes the second aggregates equal (Proof/KernelValue.lean). Nothing was rewritten
  when the kernel's program was read at the extended reals, so that it is the sanctioned reading of the
  word-level program holds with nothing to show.
-/
import proofs.«169940_j52390011076772_2_alg».proof.Defs
import proofs.«169940_j52390011076772_2_alg».proof.Proof.Gen.Kernel
import proofs.«169940_j52390011076772_2_alg».proof.Proof.Gen.Kernel.Skeleton
import proofs.«169940_j52390011076772_2_alg».proof.Proof.Gen.Kernel.Launch
import proofs.«169940_j52390011076772_2_alg».proof.Proof.Gen.Kernel.Points
import proofs.«169940_j52390011076772_2_alg».proof.Proof.Gen.Kernel.Frame
import proofs.«169940_j52390011076772_2_alg».proof.Proof.Gen.KernelIdeal
import proofs.«169940_j52390011076772_2_alg».proof.Proof.Gen.KernelIdeal.Skeleton
import proofs.«169940_j52390011076772_2_alg».proof.Proof.Gen.KernelIdeal.Launch
import proofs.«169940_j52390011076772_2_alg».proof.Proof.Gen.KernelIdeal.Points
import proofs.«169940_j52390011076772_2_alg».proof.Proof.Gen.KernelIdeal.Frame
import proofs.«169940_j52390011076772_2_alg».proof.Proof.Gen.ReferenceIdeal
import proofs.«169940_j52390011076772_2_alg».proof.Proof.Gen.ReferenceIdeal.Run
import proofs.«169940_j52390011076772_2_alg».proof.Proof.Gen.Pre_finite_inputs
import proofs.«169940_j52390011076772_2_alg».proof.Proof.KernelValue
import proofs.«169940_j52390011076772_2_alg».proof.Proof.RefStages
import Idealize.ShloMosaic.Adequacy
import Idealize.ShloMosaic.Init

noncomputable section

namespace Cert.Proof

open Idealize.ShloMosaic Idealize.SL.Sem Cert.Kernel

/-- The word-level program runs to its end, nothing faulting, and leaves its arguments as they were. -/
theorem frame_kernel : Cert.frame_Kernel := fun m ρ _ => Cert.Kernel.Gen.frame m ρ

/-- So does the program read at the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel's program at the extended reals rewrote no operation. -/
theorem preserves : Cert.preserves_Kernel_KernelIdeal := trivial

/-- From memories that agree on the arguments, both programs end with both layers of the arguments in their
    result buffers. -/
theorem algebraic : Cert.algebraic_KernelIdeal_ReferenceIdeal := by
  intro m ρ m' ρ' _ hagree
  refine ⟨fun c => Cert.Sage.twoLayers
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Sage.run_value m ρ, ?_⟩
  refine (θ_run Cert.ReferenceIdeal.defs _ _).mono (fun _ h c => ⟨(h c).1.trans ?_, (h c).2⟩)
    (Cert.ReferenceIdeal.Value.run (F := Ideal) m' ρ')
  rw [Cert.Sage.reference_result]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
